-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel

variable [Facts]

def fn {F : FTy → Type} [FloatOps F] (main_arg0 : FVec F S16x512x64x64 .f32) (main_arg1 : FVec F S16x512x64x64 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512x64x64 .f32 := Host.absf main_arg1
  let main_cst_0 : FVec F S_ .f32 := constant S_ .f32 0x7F800000#32
  let main_v5 : FVec F S16x512x64x64 .f32 := broadcastInDim S16x512x64x64 ![] bcast_S_S16x512x64x64 main_cst_0
  let main_v6 : IVec S16x512x64x64 1 := cmpf .olt main_v4 main_v5
  let main_c_1 : IVec S_ 1 := constantI S_ 1 1#1
  let main_v7 : IVec S_ 1 := (fun x v => Host.reduce IntOp.andi x v reducesTo_S16x512x64x64_S_d0_1_2_3 h_S_) main_v6 main_c_1
  let main_v8 : IVec S_ 1 := andi main_v3 main_v7
  main_v8
-- ==== Kernel.lean ====
abbrev S16x512x64x64 : Shape := ⟨4, ![16, 512, 64, 64]⟩
abbrev S16x512x4096 : Shape := ⟨3, ![16, 512, 4096]⟩
abbrev S1x512x4096 : Shape := ⟨3, ![1, 512, 4096]⟩
abbrev S1x128x4096 : Shape := ⟨3, ![1, 128, 4096]⟩
abbrev S512x4096 : Shape := ⟨2, ![512, 4096]⟩
abbrev S128x4096 : Shape := ⟨2, ![128, 4096]⟩
abbrev S128x512 : Shape := ⟨2, ![128, 512]⟩

abbrev nBuf : Space → Nat
  | .hbm => 6
  | .vmem => 8
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S16x512x4096, .f32⟩
  | .hbm, ⟨5, _⟩ => ⟨S16x512x64x64, .f32⟩
  | .local _ .vmem, ⟨0, _⟩ => ⟨S1x512x4096, .f32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x128x4096, .f32⟩
  | .local _ .vmem, ⟨5, _⟩ => ⟨S1x128x4096, .f32⟩
  | .local _ .vmem, ⟨6, _⟩ => ⟨S512x4096, .bf16⟩
  | .local _ .vmem, ⟨7, _⟩ => ⟨S512x4096, .bf16⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 2 → Nat :=
  let arg1 : BitVec 32 := BitVec.ofNat 32 (i 1).val
  let c128_i32 : BitVec 32 := 128#32
  let v3 : BitVec 32 := Scalar.muli arg1 c128_i32
  let v4 : BitVec 32 := v3
  let v5 : Index := Scalar.indexCast v4
  let c0 : Index := 0#32
  ![v5.toNat, 0]
def k0_off2 (i : grid0.Coords) : Fin 3 → Nat :=
  let c0_6 : Index := 0#32
  let arg1 : BitVec 32 := BitVec.ofNat 32 (i 1).val
  let c128_i32 : BitVec 32 := 128#32
  let v3 : BitVec 32 := Scalar.muli arg1 c128_i32
  let v4 : BitVec 32 := v3
  let v13 : Index := Scalar.indexCast v4
  let c0_7 : Index := 0#32
  ![0, v13.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x512x64x64_S16x512x4096 : S16x512x64x64.ShapeCasts S16x512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  packedbf16_S512x4096_S512x4096_0_0 : (Rect.unit (s := S512x4096) ![0, 0] S512x4096.size inb_S512x4096_S512x4096_0_0).PackedRows (EltTy.packing .bf16)
  h_S128x4096 : 0 < S128x4096.numel
  h_S1x128x4096 : 0 < S1x128x4096.numel
  shapeCasts_S1x128x4096_S128x4096 : S1x128x4096.ShapeCasts S128x4096
  inb_S1x128x4096_S1x128x4096_0_0_0 : ∀ a, (![0, 0, 0] : Fin 3 → Nat) a + S1x128x4096.size a ≤ S1x128x4096.size a
  shapeCasts_S128x4096_S1x128x4096 : S128x4096.ShapeCasts S1x128x4096
  shapeCasts_S16x512x4096_S16x512x64x64 : S16x512x4096.ShapeCasts S16x512x64x64
  dot_S128x4096_S512x4096_S128x512_1_1_0_0_n_n_wf : DotDims.WF S128x4096 S512x4096 S128x512 [1] [1] [0] [0] [] []
  dot_S128x512_S512x4096_S128x4096_1_0_0_1_n_n_wf : DotDims.WF S128x512 S512x4096 S128x4096 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x4096.size a ≤ S512x4096.size a
  k0_off2_inb : ∀ i : grid0.Coords, ∀ a, (k0_off2 i) a + S1x128x4096.size a ≤ S1x512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x512x4096.size a
  hwx0_0 : ∀ i : grid0.Coords, EltTy.bits .f32 = 32 ∨ (Rect.block (s := S16x512x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S16x512x4096.size a
  hwx0_1 : ∀ i : grid0.Coords, EltTy.bits .f32 = 32 ∨ (Rect.block (s := S16x512x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S16x512x4096.size a
  hwx0_2 : ∀ i : grid0.Coords, EltTy.bits .f32 = 32 ∨ (Rect.block (s := S16x512x4096) S1x128x4096.size (cc0_transform_2 i) (hinb0_2 i)).WholeWords (EltTy.packing .f32)

variable [Facts₀]

def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf
def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x512x4096 : Shape := ⟨3, ![16, 512, 4096]⟩
abbrev S16x512x512 : Shape := ⟨3, ![16, 512, 512]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512x64x64, .f32⟩
  | .hbm, ⟨2, _⟩ => ⟨S16x512x4096, .f32⟩
  | .hbm, ⟨3, _⟩ => ⟨S16x512x4096, .f32⟩
  | .hbm, ⟨4, _⟩ => ⟨S16x512x512, .f32⟩
  | .hbm, ⟨5, _⟩ => ⟨S16x512x512, .f32⟩
  | .hbm, ⟨6, _⟩ => ⟨S16x512x512, .f32⟩
  | .hbm, ⟨7, _⟩ => ⟨S_, .f32⟩
  | .hbm, ⟨8, _⟩ => ⟨S16x512x512, .f32⟩
  | .hbm, ⟨9, _⟩ => ⟨S16x512x512, .f32⟩
  | .hbm, ⟨10, _⟩ => ⟨S_, .f32⟩
  | .hbm, ⟨11, _⟩ => ⟨S16x512x512, .f32⟩
  | .hbm, ⟨12, _⟩ => ⟨S16x512x512, .f32⟩
  | .hbm, ⟨13, _⟩ => ⟨S16x512x4096, .f32⟩
  | .hbm, ⟨14, _⟩ => ⟨S16x512x64x64, .f32⟩
  | .hbm, ⟨15, _⟩ => ⟨S16x512x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  shapeCasts_S16x512x64x64_S16x512x4096 : S16x512x64x64.ShapeCasts S16x512x4096
  bcast_S_S16x512x512 : S_.BroadcastsInDim S16x512x512 (![] : Fin 0 → Fin S16x512x512.rank)
  shapeCasts_S16x512x4096_S16x512x64x64 : S16x512x4096.ShapeCasts S16x512x64x64
  dot_S16x512x4096_S16x512x4096_S16x512x512_2_2_1_1_0_0_wf : DotDims.WF S16x512x4096 S16x512x4096 S16x512x512 [2] [2] [1] [1] [0] [0]
  dot_S16x512x512_S16x512x4096_S16x512x4096_2_1_1_2_0_0_wf : DotDims.WF S16x512x512 S16x512x4096 S16x512x4096 [2] [1] [1] [2] [0] [0]

variable [Facts₀]

def dot_S16x512x4096_S16x512x4096_S16x512x512_2_2_1_1_0_0 : DotDims S16x512x4096 S16x512x4096 S16x512x512 where
  lhsContracting := [2]
  rhsContracting := [2]
  lhsNonContracting := [1]
  rhsNonContracting := [1]
  lhsBatch := [0]
  rhsBatch := [0]
  wf := dot_S16x512x4096_S16x512x4096_S16x512x512_2_2_1_1_0_0_wf
def dot_S16x512x512_S16x512x4096_S16x512x4096_2_1_1_2_0_0 : DotDims S16x512x512 S16x512x4096 S16x512x4096 where
  lhsContracting := [2]
  rhsContracting := [1]
  lhsNonContracting := [1]
  rhsNonContracting := [2]
  lhsBatch := [0]
  rhsBatch := [0]
  wf := dot_S16x512x512_S16x512x4096_S16x512x4096_2_1_1_2_0_0_wf

class Facts : Prop extends Facts₀ where

variable [Facts]
-- ==== Proof.KPieces.lean ====
/-
  What one grid point leaves behind, as values: the two cached copies and the stored tile.

  At the first tile of a batch the body fills both caches from the input blocks and then reads them back; at the
  other three tiles it reads what the tile before left. Either way the stored tile is one function of the point's
  first-input block and the two caches, and the caches after any point are the copies of that point's input blocks,
  because the four tiles of a batch see the same input blocks.
-/
import proofs.«135944_j21861383537209_2_alg».proof.Proof.Gen.KernelIdeal.Frame
import Idealize.ShloMosaic.Lib.Pipeline.Value
import Idealize.ShloMosaic.Lib.Tactic

noncomputable section

namespace Cert.Fusion.Kern

open Idealize.ShloMosaic Idealize.ShloMosaic.TcCoe Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The tile a point stores, from its first-input block `x0` and the two caches: the body's arithmetic on the
    second cache's 128 rows at the point's row offset, the two caches whole, and the block's 128 rows there. -/
def tile (i : grid0.Coords) (x0 : Vec F S1x512x4096 .f32) (r16 d16 : Vec F S512x4096 .bf16) : Vec F S1x128x4096 .f32 :=
  k0_pay3 (fun j => d16 ((Rect.unit (s := S512x4096) (k0_off1 i) S128x4096.size (k0_off1_inb i)).idx j)) r16 d16
    (fun j => x0 ((Rect.unit (s := S1x512x4096) (k0_off2 i) S1x128x4096.size (k0_off2_inb i)).idx j))

/-- A later tile of a batch: the caches are read as the tile before left them. -/
theorem out_B (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x128x4096 .f32) (harg4 : arg4.IsWhole) (arg5 : Memref sig .tc .vmem S512x4096 .bf16) (harg5 : arg5.IsWhole) (arg6 : Memref sig .tc .vmem S512x4096 .bf16) (harg6 : arg6.IsWhole) (hc0 : ¬cond0_0 i) (x0 x1 : Vec F S1x512x4096 .f32) (xs0 xs1 : Vec F S512x4096 .bf16) :
    out0_B_2 c i arg2 harg2 arg3 harg3 arg4 harg4 arg5 harg5 arg6 harg6 hc0 x0 x1 xs0 xs1 = tile i x0 xs0 xs1 := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  sl_unfold_words
  rw [View.canon_unit_zero hz3]
  simp only [View.readAt_eq_ld, harg2.read_unread, harg5.read_unread, harg6.read_unread, View.ld_unit_zero (S := S512x4096) hz2]
  rfl

/-- The first tile of a batch fills the first cache with the copy of the first input's block, -/
theorem sout_A0 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x128x4096 .f32) (harg4 : arg4.IsWhole) (arg5 : Memref sig .tc .vmem S512x4096 .bf16) (harg5 : arg5.IsWhole) (arg6 : Memref sig .tc .vmem S512x4096 .bf16) (harg6 : arg6.IsWhole) (hc0 : cond0_0 i) (x0 x1 : Vec F S1x512x4096 .f32) :
    sout0_A_0 c i arg2 harg2 arg3 harg3 arg4 harg4 arg5 harg5 arg6 harg6 hc0 x0 x1 = k0_pay1 x0 := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_unit_zero hz2]
  simp only [View.readAt_eq_ld, harg2.read_unread, View.ld_unit_zero (S := S1x512x4096) hz3]

/-- and the second with the copy of the second input's block, -/
theorem sout_A1 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x128x4096 .f32) (harg4 : arg4.IsWhole) (arg5 : Memref sig .tc .vmem S512x4096 .bf16) (harg5 : arg5.IsWhole) (arg6 : Memref sig .tc .vmem S512x4096 .bf16) (harg6 : arg6.IsWhole) (hc0 : cond0_0 i) (x0 x1 : Vec F S1x512x4096 .f32) :
    sout0_A_1 c i arg2 harg2 arg3 harg3 arg4 harg4 arg5 harg5 arg6 harg6 hc0 x0 x1 = k0_pay2 x1 := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_words
  rw [View.canon_unit_zero hz2]
  simp only [View.readAt_eq_ld, harg3.read_unread, View.ld_unit_zero (S := S1x512x4096) hz3]

/-- and stores the tile computed from the caches it has just filled. -/
theorem out_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S1x128x4096 .f32) (harg4 : arg4.IsWhole) (arg5 : Memref sig .tc .vmem S512x4096 .bf16) (harg5 : arg5.IsWhole) (arg6 : Memref sig .tc .vmem S512x4096 .bf16) (harg6 : arg6.IsWhole) (hc0 : cond0_0 i) (x0 x1 : Vec F S1x512x4096 .f32) :
    out0_A_2 c i arg2 harg2 arg3 harg3 arg4 harg4 arg5 harg5 arg6 harg6 hc0 x0 x1 = tile i x0 (k0_pay1 x0) (k0_pay2 x1) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero hz3]
  simp only [View.readCov_unit_zero (S := S512x4096) _ hz2, View.readAt_writes_junk_eq_canon, View.canon_unit_zero (S := S512x4096) hz2,
    View.readAt_eq_ld, harg2.read_unread, harg3.read_unread, View.ld_unit_zero (S := S1x512x4096) hz3, tile, k0_off1, k0_off2]
  rfl

end Cert.Fusion.Kern

end
-- ==== Proof.KChain.lean ====
/-
  The caches across the grid, and the tile every point stores.

  The grid runs the four row tiles of a batch consecutively, and both input windows show the whole batch at each of
  them. So the caches, filled at a batch's first tile, still hold the copies of the CURRENT point's input blocks at
  the other three — by induction on the point — and every point stores the same function of its own input blocks.
-/
import proofs.«135944_j21861383537209_2_alg».proof.Proof.KPieces
import Idealize.ShloMosaic.Lib.ValueIdx

noncomputable section

namespace Cert.Fusion.Kern

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]
variable (m : (ℓ : Loc nD τ sig) → Buf (Elt F) ℓ)

theorem N64 : cfg0.N = 64 := N_0

/-- Point `t` is row tile `t % 4` of batch `t / 4`: both input windows sit on the batch's whole block, the output
    window on the tile's 128 rows, and the body's second grid coordinate is the tile number. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ ((grid0.coords t) (1 : Fin 2)).val = t.val % 4 :=
  (by decide +kernel : ∀ t : Fin grid0.N, _)

/-- The batch a point works on. -/
def bat (t : Fin cfg0.N) : Fin 16 := ⟨t.val / 4, by have := t.isLt; have hN : cfg0.N = 64 := N_0; omega⟩

/-- The first input's block at a point is the batch's whole (channel, pixel) matrix. -/
theorem iblk0_apply (c : Dev nD) (t : Fin cfg0.N) (z : Fin 1) (p : Fin 512) (q : Fin 4096) :
    (iblk m c 0 t : Vec F S1x512x4096 .f32) (ix3 z p q) = V m c main_v0 (ix3 (bat t) p q) := by
  obtain ⟨h0, h1, h2, -⟩ := idx_facts t
  unfold iblk
  rw [View.read_apply]
  show V m c main_v0 _ = V m c main_v0 _
  congr 1
  funext a
  apply Fin.ext
  match a with
  | ⟨0, _⟩ => show win0_0.index t 0 * 1 + 1 * z.val = t.val / 4; rw [h0]; omega
  | ⟨1, _⟩ => show win0_0.index t 1 * 512 + 1 * p.val = p.val; rw [h1]; omega
  | ⟨2, _⟩ => show win0_0.index t 2 * 4096 + 1 * q.val = q.val; rw [h2]; omega

/-- So is the second input's. -/
theorem iblk1_apply (c : Dev nD) (t : Fin cfg0.N) (z : Fin 1) (p : Fin 512) (q : Fin 4096) :
    (iblk m c 1 t : Vec F S1x512x4096 .f32) (ix3 z p q) = V m c main_v1 (ix3 (bat t) p q) := by
  obtain ⟨-, -, -, h0, h1, h2, -⟩ := idx_facts t
  unfold iblk
  rw [View.read_apply]
  show V m c main_v1 _ = V m c main_v1 _
  congr 1
  funext a
  apply Fin.ext
  match a with
  | ⟨0, _⟩ => show win0_1.index t 0 * 1 + 1 * z.val = t.val / 4; rw [h0]; omega
  | ⟨1, _⟩ => show win0_1.index t 1 * 512 + 1 * p.val = p.val; rw [h1]; omega
  | ⟨2, _⟩ => show win0_1.index t 2 * 4096 + 1 * q.val = q.val; rw [h2]; omega

/-- Two points of one batch see the same first-input block, -/
theorem iblk0_same (c : Dev nD) (t t' : Fin cfg0.N) (h : t.val / 4 = t'.val / 4) :
    (iblk m c 0 t : Vec F S1x512x4096 .f32) = (iblk m c 0 t' : Vec F S1x512x4096 .f32) := by
  funext y
  obtain ⟨z, p, q, rfl⟩ : ∃ (z : Fin 1) (p : Fin 512) (q : Fin 4096), y = ix3 z p q := ⟨y 0, y 1, y 2, eq_ix3 y⟩
  rw [iblk0_apply, iblk0_apply, show bat t = bat t' from Fin.ext h]

/-- and the same second-input block. -/
theorem iblk1_same (c : Dev nD) (t t' : Fin cfg0.N) (h : t.val / 4 = t'.val / 4) :
    (iblk m c 1 t : Vec F S1x512x4096 .f32) = (iblk m c 1 t' : Vec F S1x512x4096 .f32) := by
  funext y
  obtain ⟨z, p, q, rfl⟩ : ∃ (z : Fin 1) (p : Fin 512) (q : Fin 4096), y = ix3 z p q := ⟨y 0, y 1, y 2, eq_ix3 y⟩
  rw [iblk1_apply, iblk1_apply, show bat t = bat t' from Fin.ext h]

/-- After every point the caches hold the copies of that point's input blocks. -/
theorem caches (c : Dev nD) : ∀ (n : ℕ) (t : Fin cfg0.N), t.val = n →
    (outsAt0 m c t.val t.isLt).2.1 = k0_pay1 (iblk m c 0 t) ∧ (outsAt0 m c t.val t.isLt).2.2 = k0_pay2 (iblk m c 1 t) := by
  intro n
  induction n with
  | zero =>
    intro t ht
    have h0 : t.val % 4 = 0 := by rw [ht]
    rw [outsAt0_A m c t h0]
    dsimp only
    rw [sout_A0, sout_A1]
    exact ⟨rfl, rfl⟩
  | succ n ih =>
    intro t ht
    by_cases h0 : t.val % 4 = 0
    · rw [outsAt0_A m c t h0]
      dsimp only
      rw [sout_A0, sout_A1]
      exact ⟨rfl, rfl⟩
    · have hlt : t.val - 1 < cfg0.N := Nat.lt_of_le_of_lt (Nat.sub_le _ _) t.isLt
      obtain ⟨e0, e1⟩ := ih ⟨t.val - 1, hlt⟩ (by show t.val - 1 = n; omega)
      have hb : (⟨t.val - 1, hlt⟩ : Fin cfg0.N).val / 4 = t.val / 4 := by
        show (t.val - 1) / 4 = t.val / 4; omega
      rw [outsAt0_B m c t h0]
      dsimp only
      unfold sout0_B_0 sout0_B_1
      exact ⟨e0.trans (congrArg k0_pay1 (iblk0_same m c _ _ hb)), e1.trans (congrArg k0_pay2 (iblk1_same m c _ _ hb))⟩

/-- So every point stores the tile computed from its own input blocks. -/
theorem out_eq (c : Dev nD) (t : Fin cfg0.N) :
    (outsAt0 m c t.val t.isLt).1 = tile (grid0.coords t) (iblk m c 0 t) (k0_pay1 (iblk m c 0 t)) (k0_pay2 (iblk m c 1 t)) := by
  by_cases h0 : t.val % 4 = 0
  · rw [outsAt0_A m c t h0]
    dsimp only
    rw [out_A]
  · have hlt : t.val - 1 < cfg0.N := Nat.lt_of_le_of_lt (Nat.sub_le _ _) t.isLt
    obtain ⟨e0, e1⟩ := caches m c (t.val - 1) ⟨t.val - 1, hlt⟩ rfl
    have hb : (⟨t.val - 1, hlt⟩ : Fin cfg0.N).val / 4 = t.val / 4 := by
      show (t.val - 1) / 4 = t.val / 4; omega
    rw [outsAt0_B m c t h0]
    dsimp only
    rw [out_B]
    exact congrArg₂ (tile (grid0.coords t) (iblk m c 0 t))
      (e0.trans (congrArg k0_pay1 (iblk0_same m c _ _ hb))) (e1.trans (congrArg k0_pay2 (iblk1_same m c _ _ hb)))

end Cert.Fusion.Kern

end
-- ==== Proof.KPay.lean ====
/-
  The kernel body's arithmetic, read at an index on the extended reals.

  A change of float format is the identity there, so the two cached copies are the input blocks themselves with
  the unit batch axis dropped; a product into a zero accumulator is the plain sum over the contracted axis; and
  the stored tile at row `p`, pixel `q` is the first input's row there plus the second input's channels at `q`
  weighted by the logistic function of row `p`'s inner products with the first input's channels.
-/
import proofs.«135944_j21861383537209_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Fusion.Kern

open Idealize.ShloMosaic Idealize.ShloMosaic.ValueIdx
open Cert.KernelIdeal Cert.KernelIdeal.Gen

/-- The first product's dimension numbers: rows of the left operand against rows of the right, both contracted
    over their second axis. -/
abbrev D1 : DotDims S128x4096 S512x4096 S128x512 := dot_S128x4096_S512x4096_S128x512_1_1_0_0_n_n
/-- The second product's: an ordinary rows-by-columns product. -/
abbrev D2 : DotDims S128x512 S512x4096 S128x4096 := dot_S128x512_S512x4096_S128x4096_1_0_0_1_n_n

/-- Prepending the unit batch coordinate to a (channel, pixel) pair. -/
theorem cons_ix2 {n0 n1 : Nat} (p : Fin n0) (q : Fin n1) :
    (Fin.cons (⟨0, Nat.one_pos⟩ : Fin 1) (ix2 p q) : (⟨3, ![1, n0, n1]⟩ : Shape).Idx) = ix3 (⟨0, Nat.one_pos⟩ : Fin 1) p q :=
  funext fun a => by match a with | ⟨0, _⟩ => rfl | ⟨1, _⟩ => rfl | ⟨2, _⟩ => rfl

/-- Dropping it again. -/
theorem succ_ix3 {n0 n1 : Nat} (z : Fin 1) (p : Fin n0) (q : Fin n1) :
    (fun a : Fin 2 => (ix3 z p q : (⟨3, ![1, n0, n1]⟩ : Shape).Idx) a.succ) = ix2 p q :=
  funext fun a => by match a with | ⟨0, _⟩ => rfl | ⟨1, _⟩ => rfl

/-- The cached copy of the first input's block is the block. -/
theorem pay1_apply (x : Vec Ideal S1x512x4096 .f32) (p : Fin 512) (q : Fin 4096) :
    k0_pay1 (F := Ideal) x (ix2 p q) = x (ix3 ⟨0, Nat.one_pos⟩ p q) := by
  unfold k0_pay1
  refine (congrFun (shapeCast_self _ _) _).trans ?_
  refine (shapeCast_dropUnit_apply ![512, 4096] x _ (ix2 p q)).trans ?_
  exact congrArg x (cons_ix2 p q)

/-- The cached copy of the second input's block is the block. -/
theorem pay2_apply (x : Vec Ideal S1x512x4096 .f32) (p : Fin 512) (q : Fin 4096) :
    k0_pay2 (F := Ideal) x (ix2 p q) = x (ix3 ⟨0, Nat.one_pos⟩ p q) := by
  unfold k0_pay2
  refine (congrFun (shapeCast_self _ _) _).trans ?_
  refine (shapeCast_dropUnit_apply ![512, 4096] x _ (ix2 p q)).trans ?_
  exact congrArg x (cons_ix2 p q)

theorem D1_lhs0 (i : S128x512.Idx) (k : D1.contr.Idx) : (D1.lhsIdx i k 0).val = (i 0).val := by
  unfold DotDims.lhsIdx
  rw [dif_neg (show ¬(0 : Fin S128x4096.rank) ∈ D1.lhsBatch by decide), dif_pos (show (0 : Fin S128x4096.rank) ∈ D1.lhsNonContracting by decide)]
  rfl
theorem D1_lhs1 (i : S128x512.Idx) (k : D1.contr.Idx) : (D1.lhsIdx i k 1).val = (k ⟨0, by decide⟩).val :=
  D1.lhsIdx_val_of_single rfl i k
theorem D1_rhs0 (i : S128x512.Idx) (k : D1.contr.Idx) : (D1.rhsIdx i k 0).val = (i 1).val := by
  unfold DotDims.rhsIdx
  rw [dif_neg (show ¬(0 : Fin S512x4096.rank) ∈ D1.rhsBatch by decide), dif_pos (show (0 : Fin S512x4096.rank) ∈ D1.rhsNonContracting by decide)]
  rfl
theorem D1_rhs1 (i : S128x512.Idx) (k : D1.contr.Idx) : (D1.rhsIdx i k 1).val = (k ⟨0, by decide⟩).val :=
  D1.rhsIdx_val_of_single rfl i k

/-- The first product at row `p`, channel `d`: the inner product over the pixels of the left operand's row `p`
    and the right operand's row `d`. -/
theorem mm1_apply (l : FVec Ideal S128x4096 .bf16) (r : FVec Ideal S512x4096 .bf16) (p : Fin 128) (d : Fin 512) :
    matmul D1 none l r (constant S128x512 .f32 0x00000000#32) (ix2 p d) = ∑ s : Fin 4096, l (ix2 p s) * r (ix2 d s) := by
  show FloatOps.matmul D1 none l r (constant S128x512 .f32 0x00000000#32) (ix2 p d) = _
  rw [Ideal.matmul_constant_zero_apply, ← Equiv.sum_comp (contrEquiv1 D1 4096 rfl rfl).symm]
  refine Finset.sum_congr rfl fun k _ => ?_
  have hk := contrEquiv1_symm_val D1 4096 rfl rfl k
  have el : D1.lhsIdx (ix2 p d) ((contrEquiv1 D1 4096 rfl rfl).symm k) = ix2 p k := funext fun a => Fin.ext (by
    match a with
    | ⟨0, _⟩ => exact D1_lhs0 _ _
    | ⟨1, _⟩ => exact (D1_lhs1 _ _).trans hk)
  have er : D1.rhsIdx (ix2 p d) ((contrEquiv1 D1 4096 rfl rfl).symm k) = ix2 d k := funext fun a => Fin.ext (by
    match a with
    | ⟨0, _⟩ => exact D1_rhs0 _ _
    | ⟨1, _⟩ => exact (D1_rhs1 _ _).trans hk)
  rw [el, er]

theorem D2_lhs0 (i : S128x4096.Idx) (k : D2.contr.Idx) : (D2.lhsIdx i k 0).val = (i 0).val := by
  unfold DotDims.lhsIdx
  rw [dif_neg (show ¬(0 : Fin S128x512.rank) ∈ D2.lhsBatch by decide), dif_pos (show (0 : Fin S128x512.rank) ∈ D2.lhsNonContracting by decide)]
  rfl
theorem D2_lhs1 (i : S128x4096.Idx) (k : D2.contr.Idx) : (D2.lhsIdx i k 1).val = (k ⟨0, by decide⟩).val :=
  D2.lhsIdx_val_of_single rfl i k
theorem D2_rhs0 (i : S128x4096.Idx) (k : D2.contr.Idx) : (D2.rhsIdx i k 0).val = (k ⟨0, by decide⟩).val :=
  D2.rhsIdx_val_of_single rfl i k
theorem D2_rhs1 (i : S128x4096.Idx) (k : D2.contr.Idx) : (D2.rhsIdx i k 1).val = (i 1).val := by
  unfold DotDims.rhsIdx
  rw [dif_neg (show ¬(1 : Fin S512x4096.rank) ∈ D2.rhsBatch by decide), dif_pos (show (1 : Fin S512x4096.rank) ∈ D2.rhsNonContracting by decide)]
  rfl

/-- The second product at row `p`, pixel `q`: the sum over the channels of the left operand's row `p` times the
    right operand's column `q`. -/
theorem mm2_apply (l : FVec Ideal S128x512 .bf16) (r : FVec Ideal S512x4096 .bf16) (p : Fin 128) (q : Fin 4096) :
    matmul D2 none l r (constant S128x4096 .f32 0x00000000#32) (ix2 p q) = ∑ d : Fin 512, l (ix2 p d) * r (ix2 d q) := by
  show FloatOps.matmul D2 none l r (constant S128x4096 .f32 0x00000000#32) (ix2 p q) = _
  rw [Ideal.matmul_constant_zero_apply, ← Equiv.sum_comp (contrEquiv1 D2 512 rfl rfl).symm]
  refine Finset.sum_congr rfl fun k _ => ?_
  have hk := contrEquiv1_symm_val D2 512 rfl rfl k
  have el : D2.lhsIdx (ix2 p q) ((contrEquiv1 D2 512 rfl rfl).symm k) = ix2 p k := funext fun a => Fin.ext (by
    match a with
    | ⟨0, _⟩ => exact D2_lhs0 _ _
    | ⟨1, _⟩ => exact (D2_lhs1 _ _).trans hk)
  have er : D2.rhsIdx (ix2 p q) ((contrEquiv1 D2 512 rfl rfl).symm k) = ix2 k q := funext fun a => Fin.ext (by
    match a with
    | ⟨0, _⟩ => exact (D2_rhs0 _ _).trans hk
    | ⟨1, _⟩ => exact D2_rhs1 _ _)
  rw [el, er]

/-- The stored tile at row `p`, pixel `q`. -/
theorem pay3_apply (v6 : Vec Ideal S128x4096 .bf16) (v7 v11 : Vec Ideal S512x4096 .bf16) (v14 : Vec Ideal S1x128x4096 .f32)
    (z : Fin 1) (p : Fin 128) (q : Fin 4096) :
    k0_pay3 (F := Ideal) v6 v7 v11 v14 (ix3 z p q)
      = v14 (ix3 ⟨0, Nat.one_pos⟩ p q)
        + ∑ d : Fin 512, Ideal.logistic (∑ s : Fin 4096, v6 (ix2 p s) * v7 (ix2 d s)) * v11 (ix2 d q) := by
  unfold k0_pay3
  refine (shapeCast_addUnit_apply ![128, 4096] _ _ (ix3 z p q)).trans ?_
  rw [succ_ix3]
  refine (addf_apply _ _ (ix2 p q)).trans ?_
  refine congrArg₂ (· + ·) ?_ ?_
  · refine (shapeCast_dropUnit_apply ![128, 4096] v14 _ (ix2 p q)).trans ?_
    exact congrArg v14 (cons_ix2 p q)
  · refine (mm2_apply _ v11 p q).trans ?_
    refine Finset.sum_congr rfl fun d _ => ?_
    refine congrArg (· * v11 (ix2 d q)) ?_
    show Ideal.logistic (matmul (F := Ideal) D1 none v6 v7 (constant S128x512 .f32 0x00000000#32) (ix2 p d)) = _
    rw [mm1_apply]

end Cert.Fusion.Kern

end
-- ==== Proof.Spec.lean ====
/-
  The fused feature map as one function of the two flattened argument arrays, index by index.

  For a batch `b`, write `R b` and `D b` for the two 512 × 4096 matrices (channel × pixel) of the two inputs.
  The channel-to-channel score is `S b c d = ∑ₛ D b c s · R b d s`; the gate is the logistic function of it; the
  gated feature is `W b c s = ∑_d logistic (S b c d) · D b d s`; and the result is `R b c s + W b c s`.
  Every sum is a finite sum of extended reals, so neither its order nor its grouping matters.
-/
import Idealize.ShloMosaic.PureOps.Ideal
import Idealize.ShloMosaic.Lib.ValueIdx

noncomputable section

open scoped BigOperators

namespace Cert.Fusion

open Idealize.ShloMosaic Idealize.ShloMosaic.ValueIdx

/-- The flattened arrays' shape: batch × channel × pixel. -/
abbrev A3 : Shape := ⟨3, ![16, 512, 4096]⟩
/-- The arguments' and the result's shape: batch × channel × row × column. -/
abbrev A4 : Shape := ⟨4, ![16, 512, 64, 64]⟩

/-- The score of channel `c` of the second input against channel `d` of the first, in batch `b`: their inner
    product over the pixels. -/
def score (R D : A3.Idx → EReal) (b : Fin 16) (c d : Fin 512) : EReal :=
  ∑ s : Fin 4096, D (ix3 b c s) * R (ix3 b d s)

/-- The gated feature: channel `c` at pixel `s` is the second input's channels at `s`, each weighted by the
    logistic function of its score against `c`. -/
def weighted (R D : A3.Idx → EReal) (b : Fin 16) (c : Fin 512) (s : Fin 4096) : EReal :=
  ∑ d : Fin 512, Ideal.logistic (score R D b c d) * D (ix3 b d s)

/-- The gated feature as an array. -/
def weightedArr (R D : A3.Idx → EReal) : A3.Idx → EReal :=
  fun i => weighted R D (i 0) (i 1) (i 2)

/-- The fused feature map on the flattened arrays: the first input plus the gated feature. -/
def fused (R D : A3.Idx → EReal) : A3.Idx → EReal :=
  fun i => R i + weighted R D (i 0) (i 1) (i 2)

theorem fused_apply (R D : A3.Idx → EReal) (b : Fin 16) (c : Fin 512) (s : Fin 4096) :
    fused R D (ix3 b c s) = R (ix3 b c s) + weighted R D b c s := rfl

end Cert.Fusion

end
-- ==== Proof.KTile.lean ====
/-
  The kernel's output array after the region, on the extended reals: the fused feature map of the two flattened
  arrays as the region finds them.

  Point `t` is row tile `t % 4` of batch `t / 4`. Its stored tile at row `p`, pixel `q` is, by the body's
  arithmetic read at an index, the fused map at batch `t / 4`, channel `128 · (t % 4) + p`, pixel `q`: the score
  sums run over the batch's whole matrices, which both caches hold. That is the output window's block at `t` of the
  fused map, and the 64 blocks tile the array.
-/
import proofs.«135944_j21861383537209_2_alg».proof.Proof.KChain
import proofs.«135944_j21861383537209_2_alg».proof.Proof.KPay
import proofs.«135944_j21861383537209_2_alg».proof.Proof.Spec

noncomputable section

open scoped BigOperators

namespace Cert.Fusion.Kern

open Idealize.ShloMosaic Idealize.ShloMosaic.TcCoe Idealize.SL.Sem Idealize.ShloMosaic.ValueIdx
open Idealize.ShloMosaic.Pipeline (Dat)
open Cert.KernelIdeal Cert.KernelIdeal.Gen Cert.Fusion

/-- The 128 rows of the second cache the body loads at a point are rows `128 · (tile number) + p`. -/
theorem off1_idx (i : grid0.Coords) (p : Fin 128) (s : Fin 4096) (r : Fin 512) (hr : r.val = 128 * (i 1).val + p.val) :
    (Rect.unit (s := S512x4096) (k0_off1 i) S128x4096.size (k0_off1_inb i)).idx (ix2 p s) = ix2 r s := by
  funext a
  apply Fin.ext
  match a with
  | ⟨0, _⟩ =>
    show (k0_off1 i) 0 + 1 * p.val = r.val
    rw [k0_off1_eq]
    show 128 * (i 1).val + 1 * p.val = r.val
    omega
  | ⟨1, _⟩ =>
    show (k0_off1 i) 1 + 1 * s.val = s.val
    rw [k0_off1_eq]
    show 0 + 1 * s.val = s.val
    omega

/-- So are the 128 rows of the first input's block it loads. -/
theorem off2_idx (i : grid0.Coords) (z : Fin 1) (p : Fin 128) (q : Fin 4096) (r : Fin 512) (hr : r.val = 128 * (i 1).val + p.val) :
    (Rect.unit (s := S1x512x4096) (k0_off2 i) S1x128x4096.size (k0_off2_inb i)).idx (ix3 z p q) = ix3 (⟨0, Nat.one_pos⟩ : Fin 1) r q := by
  funext a
  apply Fin.ext
  match a with
  | ⟨0, _⟩ =>
    show (k0_off2 i) 0 + 1 * z.val = 0
    rw [k0_off2_eq]
    show 0 + 1 * z.val = 0
    omega
  | ⟨1, _⟩ =>
    show (k0_off2 i) 1 + 1 * p.val = r.val
    rw [k0_off2_eq]
    show 128 * (i 1).val + 1 * p.val = r.val
    omega
  | ⟨2, _⟩ =>
    show (k0_off2 i) 2 + 1 * q.val = q.val
    rw [k0_off2_eq]
    show 0 + 1 * q.val = q.val
    omega

/-- The stored tile at row `p`, pixel `q`, from the point's two input blocks: with `r` the channel
    `128 · (tile number) + p`, the first block at `(r, q)` plus the second block's channels at `q` weighted by the
    logistic function of the inner product of the second block's channel `r` with each channel of the first. -/
theorem tile_apply (i : grid0.Coords) (x0 x1 : Vec Ideal S1x512x4096 .f32) (z : Fin 1) (p : Fin 128) (q : Fin 4096)
    (r : Fin 512) (hr : r.val = 128 * (i 1).val + p.val) :
    tile (F := Ideal) i x0 (k0_pay1 x0) (k0_pay2 x1) (ix3 z p q)
      = x0 (ix3 ⟨0, Nat.one_pos⟩ r q)
        + ∑ d : Fin 512, Ideal.logistic (∑ s : Fin 4096, x1 (ix3 ⟨0, Nat.one_pos⟩ r s) * x0 (ix3 ⟨0, Nat.one_pos⟩ d s))
            * x1 (ix3 ⟨0, Nat.one_pos⟩ d q) := by
  unfold tile
  refine (pay3_apply _ _ _ _ z p q).trans ?_
  refine congrArg₂ (· + ·) (congrArg x0 (off2_idx i ⟨0, Nat.one_pos⟩ p q r hr)) ?_
  refine Finset.sum_congr rfl fun d _ => ?_
  show Ideal.logistic (∑ s : Fin 4096, k0_pay2 x1 ((Rect.unit (s := S512x4096) (k0_off1 i) S128x4096.size (k0_off1_inb i)).idx (ix2 p s))
      * k0_pay1 x0 (ix2 d s)) * k0_pay2 x1 (ix2 d q) = _
  simp only [off1_idx i p _ r hr, pay1_apply, pay2_apply]

variable (m : (ℓ : Loc nD τ sig) → Buf (Elt Ideal) ℓ)

/-- The channel a point's tile row `p` is. -/
def row (t : Fin cfg0.N) (p : Fin 128) : Fin 512 := ⟨128 * (t.val % 4) + p.val, by have := p.isLt; omega⟩

/-- What point `t` stores at row `p`, pixel `q` is the fused map at its batch, that channel and pixel. -/
theorem block_eq (c : Dev nD) (t : Fin cfg0.N) (z : Fin 1) (p : Fin 128) (q : Fin 4096) :
    (outsAt0 m c t.val t.isLt).1 (ix3 z p q) = fused (V m c main_v0) (V m c main_v1) (ix3 (bat t) (row t p) q) := by
  obtain ⟨-, -, -, -, -, -, -, -, -, hc⟩ := idx_facts t
  rw [out_eq]
  refine (tile_apply (grid0.coords t) (iblk m c 0 t) (iblk m c 1 t) z p q (row t p)
    (by show 128 * (t.val % 4) + p.val = 128 * ((grid0.coords t) 1).val + p.val; rw [hc])).trans ?_
  simp only [iblk0_apply, iblk1_apply]
  rfl

/-- So what point `t` writes back is the output window's block at `t` of the fused map. -/
theorem flushed_eq (c : Dev nD) (t : Fin cfg0.N) :
    (dats m 0 c).flushed 2 t = ((cfg0.win 2).blk t).view.read (Elt Ideal) (fused (V m c main_v0) (V m c main_v1)) := by
  show (cfg0.win 2).cut (grid0.coords t) ((dats m 0 c).after 2 t) = _
  rw [after0_2]
  obtain ⟨-, -, -, -, -, -, h0, h1, h2, -⟩ := idx_facts t
  have key : ∀ y : S1x128x4096.Idx, (outsAt0 m c t.val t.isLt).1 y
      = fused (V m c main_v0) (V m c main_v1) (((cfg0.win 2).blk t).view.emb y) := by
    intro y
    obtain ⟨z, p, q, rfl⟩ : ∃ (z : Fin 1) (p : Fin 128) (q : Fin 4096), y = ix3 z p q := ⟨y 0, y 1, y 2, eq_ix3 y⟩
    rw [block_eq]
    refine congrArg (fused (V m c main_v0) (V m c main_v1)) ?_
    funext a
    apply Fin.ext
    have hz : z.val = 0 := by have := z.isLt; omega
    match a with
    | ⟨0, _⟩ => show t.val / 4 = win0_2.index t 0 * 1 + 1 * z.val; rw [h0]; omega
    | ⟨1, _⟩ => show 128 * (t.val % 4) + p.val = win0_2.index t 1 * 128 + 1 * p.val; rw [h1]; omega
    | ⟨2, _⟩ => show q.val = win0_2.index t 2 * 4096 + 1 * q.val; rw [h2]; omega
  exact funext key

/-- An index of the output array is in point `t`'s block iff each coordinate is in the block's range on its axis. -/
theorem mem_blk (t : Fin cfg0.N) (i : S16x512x4096.Idx) :
    i ∈ ((cfg0.win 2).blk t).view.set ↔ ∀ a : Fin 3, win0_2.index t a * S1x128x4096.size a ≤ (i a).val
      ∧ (i a).val < win0_2.index t a * S1x128x4096.size a + S1x128x4096.size a := by
  show i ∈ ((View.whole main_v2).slice (win0_2.rect t)).set ↔ _
  rw [View.set_slice_whole, Rect.mem_set_unit]
  exact Iff.rfl

/-- The output array after the region is the fused map of the two flattened arrays: batch `b`, channel `ch` is in
    the block of point `4 · b + ch / 128`. -/
theorem final (c : Dev nD) : (dats m 0 c).arrAt 2 cfg0.N = fused (V m c main_v0) (V m c main_v1) :=
  (dats m 0 c).arrAt_eq_of_cover 2 (fused (V m c main_v0) (V m c main_v1)) (fun t _ => flushed_eq m c t) fun i => by
    have hi0 : (i 0).val < 16 := (i 0).isLt
    have hi1 : (i 1).val < 512 := (i 1).isLt
    have hi2 : (i 2).val < 4096 := (i 2).isLt
    have hN : cfg0.N = 64 := N_0
    refine ⟨⟨4 * (i 0).val + (i 1).val / 128, by omega⟩, flush0_2 _, ?_⟩
    obtain ⟨-, -, -, -, -, -, h0, h1, h2, -⟩ := idx_facts ⟨4 * (i 0).val + (i 1).val / 128, by omega⟩
    rw [mem_blk]
    intro a
    match a with
    | ⟨0, _⟩ =>
      show win0_2.index _ 0 * 1 ≤ (i 0).val ∧ (i 0).val < win0_2.index _ 0 * 1 + 1
      rw [h0]; show (4 * (i 0).val + (i 1).val / 128) / 4 * 1 ≤ (i 0).val ∧ (i 0).val < (4 * (i 0).val + (i 1).val / 128) / 4 * 1 + 1
      omega
    | ⟨1, _⟩ =>
      show win0_2.index _ 1 * 128 ≤ (i 1).val ∧ (i 1).val < win0_2.index _ 1 * 128 + 128
      rw [h1]; show (4 * (i 0).val + (i 1).val / 128) % 4 * 128 ≤ (i 1).val ∧ (i 1).val < (4 * (i 0).val + (i 1).val / 128) % 4 * 128 + 128
      omega
    | ⟨2, _⟩ =>
      show win0_2.index _ 2 * 4096 ≤ (i 2).val ∧ (i 2).val < win0_2.index _ 2 * 4096 + 4096
      rw [h2]; omega

end Cert.Fusion.Kern

end
-- ==== Proof.Result.lean ====
/-
  The fused feature map on the arguments as given: flatten the two arguments' rows and columns into pixels, take the
  fused map of the flattened arrays, and unflatten.
-/
import proofs.«135944_j21861383537209_2_alg».proof.Proof.Spec
import Idealize.ShloMosaic.Lib.Pipeline.Value

noncomputable section

namespace Cert.Fusion

open Idealize.ShloMosaic

/-- The result as one function of the two argument arrays. -/
def result (a0 a1 : A4.Idx → EReal) (h3 : A4.ShapeCasts A3) (h4 : A3.ShapeCasts A4) : A4.Idx → EReal :=
  shapeCast A4 (fused (shapeCast A3 a0 h3) (shapeCast A3 a1 h3)) h4

/-- Unflattening the fused map is the first argument plus the unflattened gated feature: unflattening re-indexes, and
    flattening then unflattening is the identity. -/
theorem result_eq_add (a0 a1 : A4.Idx → EReal) (h3 : A4.ShapeCasts A3) (h4 : A3.ShapeCasts A4) (j : A4.Idx) :
    result a0 a1 h3 h4 j = a0 j + shapeCast A4 (weightedArr (shapeCast A3 a0 h3) (shapeCast A3 a1 h3)) h4 j := by
  have e : shapeCast A4 (shapeCast A3 a0 h3) h4 j = a0 j := congrFun (shapeCast_shapeCast a0 h3 h4) j
  exact congrArg (· + shapeCast A4 (weightedArr (shapeCast A3 a0 h3) (shapeCast A3 a1 h3)) h4 j) e

end Cert.Fusion

end
-- ==== Proof.KRun.lean ====
/-
  The kernel program's run, read: its result array ends at the fused feature map of the two argument arrays.

  The two reshapes before the region flatten the arguments; the region leaves the fused map of the flattened arrays
  in its output array; the reshape after it unflattens that.
-/
import proofs.«135944_j21861383537209_2_alg».proof.Proof.KTile
import proofs.«135944_j21861383537209_2_alg».proof.Proof.Result
import Idealize.ShloMosaic.Lib.StableHlo.Run

noncomputable section

namespace Cert.Fusion.Kern

open Idealize.ShloMosaic Idealize.ShloMosaic.TcCoe Idealize.SL.Sem
open Idealize.ShloMosaic.Pipeline (Dat)
open Cert.KernelIdeal Cert.KernelIdeal.Gen Cert.Fusion

variable (m : (ℓ : Loc nD τ sig) → Buf (Elt Ideal) ℓ) (ρ : Dev nD → PrngReg)

/-- The region finds the first argument flattened, -/
theorem V_v0 (c : Dev nD) : (V m c main_v0 : S16x512x4096.Idx → EReal)
    = shapeCast S16x512x4096 (m ((c : Thread nD τ).loc main_arg0)) shapeCasts_S16x512x64x64_S16x512x4096 := by
  show StableHlo.after hostOps0 (fun b => m (c, b)) (Proc.devRef .tc main_v0) = _
  after_results
  rfl

/-- and the second. -/
theorem V_v1 (c : Dev nD) : (V m c main_v1 : S16x512x4096.Idx → EReal)
    = shapeCast S16x512x4096 (m ((c : Thread nD τ).loc main_arg1)) shapeCasts_S16x512x64x64_S16x512x4096 := by
  show StableHlo.after hostOps0 (fun b => m (c, b)) (Proc.devRef .tc main_v1) = _
  after_results
  rfl

/-- The program's result: the region's output array, unflattened. -/
theorem tail_eq (c : Dev nD) :
    Pipeline.afterTail₀ cfgs (dats m) 0 (V0 m) [hostOps1] c main_v3
      = result (m ((c : Thread nD τ).loc main_arg0)) (m ((c : Thread nD τ).loc main_arg1))
          shapeCasts_S16x512x64x64_S16x512x4096 shapeCasts_S16x512x4096_S16x512x64x64 := by
  unfold Pipeline.afterTail₀
  show StableHlo.after hostOps1 _ (Proc.devRef .tc main_v3) = _
  after_results
  have e : Pipeline.withArrays spec0 c (V0 m c) (fun w => (dats m 0 c).arrAt w cfg0.N) (Proc.devRef .tc main_v2)
      = fused (V m c main_v0) (V m c main_v1) :=
    (Pipeline.withArrays_arr spec0 launch0.win.arr_inj c (V0 m c) (fun w => (dats m 0 c).arrAt w cfg0.N) 2).trans (final m c)
  funext i
  show shapeCast S16x512x64x64 (Pipeline.withArrays spec0 c (V0 m c) (fun w => (dats m 0 c).arrAt w cfg0.N)
    (Proc.devRef .tc main_v2)) shapeCasts_S16x512x4096_S16x512x64x64 i = _
  rw [e, V_v0, V_v1]
  rfl

/-- THE RUN: every weakly fair execution of the kernel program terminates with its result array at the fused
    feature map of the argument arrays, and the arguments unchanged. -/
theorem run : θ_run defs (onTc (τ := τ) (main (F := Ideal))) ⟨m, fun _ => 0, ρ⟩ fun r => ∀ c : Dev nD,
      r.2.mem ((c.tc : Thread nD τ).loc main_v3)
        = result (m ((c : Thread nD τ).loc main_arg0)) (m ((c : Thread nD τ).loc main_arg1))
            shapeCasts_S16x512x64x64_S16x512x4096 shapeCasts_S16x512x4096_S16x512x64x64
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Fusion.Kern

end
-- ==== Proof.RefSide.lean ====
/-
  The reference, read at an index: what it computes between its two reshapes is the gated feature of the
  flattened arguments. Its first contraction is the channel-to-channel score; negate, exponential, add one and
  divide one by the sum spell the logistic function on the extended reals; its second contraction weights the
  second input's channels by that gate.
-/
import proofs.«135944_j21861383537209_2_alg».proof.Proof.Gen.ReferenceIdeal.Read
import proofs.«135944_j21861383537209_2_alg».proof.Proof.Spec
import Idealize.ShloMosaic.Lib.IdealHost

noncomputable section

open scoped BigOperators

namespace Cert.Fusion.Ref

open Idealize.ShloMosaic Idealize.ShloMosaic.ValueIdx
open Cert.ReferenceIdeal Cert.ReferenceIdeal.Read Cert.Fusion

/-- The left operand of the second contraction at output `(b, c, s)` and channel `d` is the gate at `(b, c, d)`. -/
theorem lidx9 (b : Fin 16) (c : Fin 512) (s : Fin 4096) (d : Fin 512) :
    lidx_main_v9 (ix3 b c s) d = ix3 b c d :=
  funext fun a => Fin.ext (by match a with | ⟨0, _⟩ => rfl | ⟨1, _⟩ => rfl | ⟨2, _⟩ => rfl)

/-- Its right operand there is the second input at `(b, d, s)`. -/
theorem ridx9 (b : Fin 16) (c : Fin 512) (s : Fin 4096) (d : Fin 512) :
    ridx_main_v9 (ix3 b c s) d = ix3 b d s :=
  funext fun a => Fin.ext (by match a with | ⟨0, _⟩ => rfl | ⟨1, _⟩ => rfl | ⟨2, _⟩ => rfl)

/-- The left operand of the first contraction at `(b, c, d)` and pixel `k` is the second input at `(b, c, k)`. -/
theorem lidx2 (b : Fin 16) (c d : Fin 512) (k : Fin 4096) :
    lidx_main_v2 (ix3 b c d) k = ix3 b c k :=
  funext fun a => Fin.ext (by match a with | ⟨0, _⟩ => rfl | ⟨1, _⟩ => rfl | ⟨2, _⟩ => rfl)

/-- Its right operand there is the first input at `(b, d, k)`. -/
theorem ridx2 (b : Fin 16) (c d : Fin 512) (k : Fin 4096) :
    ridx_main_v2 (ix3 b c d) k = ix3 b d k :=
  funext fun a => Fin.ext (by match a with | ⟨0, _⟩ => rfl | ⟨1, _⟩ => rfl | ⟨2, _⟩ => rfl)

/-- The gate the reference computes at `(b, c, d)` is the logistic function of the score. -/
theorem gate_apply (x0 x1 : A4.Idx → EReal) (b : Fin 16) (c d : Fin 512) :
    val_main_v8 (F := Ideal) x0 x1 (ix3 b c d)
      = Ideal.logistic (score (val_main_v0 (F := Ideal) x0) (val_main_v1 (F := Ideal) x1) b c d) := by
  rw [val_main_v8_apply, val_main_v7_apply, val_main_cst_0_apply, val_main_v6_apply, val_main_v5_apply,
    val_main_cst_apply, val_main_v4_apply, val_main_v3_apply, val_main_v2_apply]
  simp only [lidx2, ridx2, Ideal.hostDivf_def, Ideal.addf_def, Ideal.hostUnary_exp_def, Ideal.hostNegf_def,
    Ideal.negf_def, Ideal.ofBits_def, Ideal.ofBits_one_f32]
  rfl

/-- Between its two reshapes the reference computes the gated feature of the flattened arguments. -/
theorem weighted_eq (x0 x1 : A4.Idx → EReal) :
    val_main_v9 (F := Ideal) x0 x1 = weightedArr (val_main_v0 (F := Ideal) x0) (val_main_v1 (F := Ideal) x1) := by
  funext i
  obtain ⟨b, c, s, rfl⟩ : ∃ (b : Fin 16) (c : Fin 512) (s : Fin 4096), i = ix3 b c s := ⟨i 0, i 1, i 2, eq_ix3 i⟩
  rw [val_main_v9_apply]
  change _ = weighted _ _ b c s
  unfold weighted
  exact Finset.sum_congr rfl fun d _ => by rw [lidx9, ridx9, gate_apply]

end Cert.Fusion.Ref

end
-- ==== Proof.RefResult.lean ====
/-
  The reference's result is the fused feature map of the two argument arrays: it adds the first argument, as given,
  to its gated feature unflattened.
-/
import proofs.«135944_j21861383537209_2_alg».proof.Proof.RefSide
import proofs.«135944_j21861383537209_2_alg».proof.Proof.Result

noncomputable section

namespace Cert.Fusion.Ref

open Idealize.ShloMosaic
open Cert.ReferenceIdeal Cert.ReferenceIdeal.Gen Cert.ReferenceIdeal.Read Cert.Fusion

theorem ref_eq (x0 x1 : A4.Idx → EReal) :
    val_main_v11 (F := Ideal) x0 x1
      = result x0 x1 shapeCasts_S16x512x64x64_S16x512x4096 shapeCasts_S16x512x4096_S16x512x64x64 := by
  funext j
  rw [result_eq_add]
  show x0 j + val_main_v10 (F := Ideal) x0 x1 j = _
  unfold val_main_v10
  rw [weighted_eq]
  unfold val_main_v0 val_main_v1
  rfl

end Cert.Fusion.Ref

end
-- ==== Proof.lean ====
/-
  A cross-modal feature fusion kernel against its reference, on the extended reals.

  Both programs take two feature maps of shape batch × channel × row × column and flatten rows and columns into
  pixels. Per batch, with `R` and `D` the two channel × pixel matrices, both compute the channel-to-channel scores
  `S c d = ∑ₛ D c s · R d s`, gate them with the logistic function, weight the second input's channels by the gate,
  `W c s = ∑_d logistic (S c d) · D d s`, and add the first input: `R c s + W c s`.

  The reference does this with two whole contractions and spells the logistic function as one over one plus the
  exponential of the negation. The kernel walks a grid of (batch, row tile of 128 channels): at a batch's first tile
  it caches both matrices in a narrower float format — the identity on the extended reals — and at every tile it
  computes 128 rows of the scores against the cached first matrix, gates them, multiplies by the cached second matrix
  and adds the first input's 128 rows. By induction on the grid point the caches hold the current batch's matrices
  at all four of its tiles, so every tile is a block of one whole-array function, and the 64 blocks tile the output.
  Both results are then the same finite sums of the same extended reals; no finiteness of the inputs is used.
-/
import proofs.«135944_j21861383537209_2_alg».proof.Defs
import proofs.«135944_j21861383537209_2_alg».proof.Proof.Gen.Kernel
import proofs.«135944_j21861383537209_2_alg».proof.Proof.Gen.Kernel.Skeleton
import proofs.«135944_j21861383537209_2_alg».proof.Proof.Gen.Kernel.Launch
import proofs.«135944_j21861383537209_2_alg».proof.Proof.Gen.Kernel.Points
import proofs.«135944_j21861383537209_2_alg».proof.Proof.Gen.Kernel.Frame
import proofs.«135944_j21861383537209_2_alg».proof.Proof.Gen.KernelIdeal
import proofs.«135944_j21861383537209_2_alg».proof.Proof.Gen.KernelIdeal.Skeleton
import proofs.«135944_j21861383537209_2_alg».proof.Proof.Gen.KernelIdeal.Launch
import proofs.«135944_j21861383537209_2_alg».proof.Proof.Gen.KernelIdeal.Points
import proofs.«135944_j21861383537209_2_alg».proof.Proof.Gen.KernelIdeal.Frame
import proofs.«135944_j21861383537209_2_alg».proof.Proof.Gen.ReferenceIdeal
import proofs.«135944_j21861383537209_2_alg».proof.Proof.Gen.Pre_finite_inputs
import proofs.«135944_j21861383537209_2_alg».proof.Proof.Gen.ReferenceIdeal.Run
import proofs.«135944_j21861383537209_2_alg».proof.Proof.Gen.ReferenceIdeal.Read
import proofs.«135944_j21861383537209_2_alg».proof.Proof.KRun
import proofs.«135944_j21861383537209_2_alg».proof.Proof.RefResult
import Idealize.ShloMosaic.Adequacy
import Idealize.ShloMosaic.Init

noncomputable section

namespace Cert.Proof

open Idealize.ShloMosaic Idealize.SL.Sem

/-- The kernel program runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The kernel's reading on the extended reals is its own text: nothing was rewritten. -/
theorem preserves : Cert.preserves_Kernel_KernelIdeal := trivial

/-- From arguments that agree, the kernel's result array and the reference's both end at the fused feature map of
    the arguments. -/
theorem algebraic : Cert.algebraic_KernelIdeal_ReferenceIdeal := by
  intro m ρ m' ρ' _ hagree
  refine ⟨_, Cert.Fusion.Kern.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v11_eq _ _).trans ?_
  rw [Cert.Fusion.Ref.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
